-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x192 : Shape := ⟨2, ![50000, 192]⟩
abbrev S2x1600000 : Shape := ⟨2, ![2, 1600000]⟩
abbrev S128x128 : Shape := ⟨2, ![128, 128]⟩
abbrev S128 : Shape := ⟨1, ![128]⟩
abbrev S1x32 : Shape := ⟨2, ![1, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x192 : S_.BroadcastsInDim S50000x192 (![] : Fin 0 → Fin S50000x192.rank)
  reducesTo_S50000x192_S_d0_1 : S50000x192.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S1x32 1) : IVec S_ 1 :=
  let main_c_5 : IVec S_ 1 := constantI S_ 1 1#1
  let main_v17 : IVec S_ 1 := (fun x v => Host.reduce IntOp.andi x v reducesTo_S1x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x192 .f32) (main_arg1 : IVec S2x1600000 32) (main_arg2 : FVec F S128x128 .f32) (main_arg3 : FVec F S128 .f32) (main_arg4 : FVec F S1x32 .f32) (main_arg5 : FVec F S32 .f32) (main_arg6 : FVec F S32x1 .f32) (main_arg7 : FVec F S1 .f32) : IVec S_ 1 :=
  let main_v0 : FVec F S50000x192 .f32 := Host.absf main_arg0
  let main_cst : FVec F S_ .f32 := constant S_ .f32 0x7F800000#32
  let main_v1 : FVec F S50000x192 .f32 := broadcastInDim S50000x192 ![] bcast_S_S50000x192 main_cst
  let main_v2 : IVec S50000x192 1 := cmpf .olt main_v0 main_v1
  let main_c : IVec S_ 1 := constantI S_ 1 1#1
  let main_v3 : IVec S_ 1 := (fun x v => Host.reduce IntOp.andi x v reducesTo_S50000x192_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x32 .f32 := Host.absf main_arg4
  let main_cst_4 : FVec F S_ .f32 := constant S_ .f32 0x7F800000#32
  let main_v15 : FVec F S1x32 .f32 := broadcastInDim S1x32 ![] bcast_S_S1x32 main_cst_4
  let main_v16 : IVec S1x32 1 := cmpf .olt main_v14 main_v15
  fn_part1 (F := F) main_arg5 main_arg6 main_arg7 main_v13 main_v16
-- ==== Kernel.lean ====
abbrev S50000x192 : Shape := ⟨2, ![50000, 192]⟩
abbrev S2x1600000 : Shape := ⟨2, ![2, 1600000]⟩
abbrev S128x128 : Shape := ⟨2, ![128, 128]⟩
abbrev S128 : Shape := ⟨1, ![128]⟩
abbrev S1x32 : Shape := ⟨2, ![1, 32]⟩
abbrev S32 : Shape := ⟨1, ![32]⟩
abbrev S32x1 : Shape := ⟨2, ![32, 1]⟩
abbrev S1 : Shape := ⟨1, ![1]⟩
abbrev S50000x64 : Shape := ⟨2, ![50000, 64]⟩
abbrev S50000x128 : Shape := ⟨2, ![50000, 128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x64 : Shape := ⟨2, ![1650000, 64]⟩
abbrev S1654784x1 : Shape := ⟨2, ![1654784, 1]⟩
abbrev S1x1 : Shape := ⟨2, ![1, 1]⟩
abbrev S8192x1 : Shape := ⟨2, ![8192, 1]⟩
abbrev S8192x32 : Shape := ⟨2, ![8192, 32]⟩
abbrev S8192 : Shape := ⟨1, ![8192]⟩
abbrev S1650000x128 : Shape := ⟨2, ![1650000, 128]⟩
abbrev S1x128 : Shape := ⟨2, ![1, 128]⟩
abbrev S2000x128 : Shape := ⟨2, ![2000, 128]⟩

abbrev nBuf : Space → Nat
  | .hbm => 102
  | .vmem => 14
  | .smem => 0
  | _ => 0

abbrev bufTy : (tb : Table) → Fin (tcTables nBuf tb) → BufTy
  | .hbm, ⟨0, _⟩ => ⟨S50000x192, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S50000x64, .f32⟩
  | .hbm, ⟨9, _⟩ => ⟨S50000x128, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S_, .i32⟩
  | .hbm, ⟨51, _⟩ => ⟨S1650000, .i32⟩
  | .hbm, ⟨52, _⟩ => ⟨S1650000, .i1⟩
  | .hbm, ⟨53, _⟩ => ⟨S_, .i32⟩
  | .hbm, ⟨54, _⟩ => ⟨S1650000, .i32⟩
  | .hbm, ⟨55, _⟩ => ⟨S1650000, .i32⟩
  | .hbm, ⟨56, _⟩ => ⟨S1650000, .i32⟩
  | .hbm, ⟨57, _⟩ => ⟨S1650000x1, .i32⟩
  | .hbm, ⟨58, _⟩ => ⟨S1650000x64, .f32⟩
  | .hbm, ⟨59, _⟩ => ⟨S_, .i32⟩
  | .hbm, ⟨60, _⟩ => ⟨S1650000, .i32⟩
  | .hbm, ⟨61, _⟩ => ⟨S1650000, .i1⟩
  | .hbm, ⟨62, _⟩ => ⟨S_, .i32⟩
  | .hbm, ⟨63, _⟩ => ⟨S1650000, .i32⟩
  | .hbm, ⟨64, _⟩ => ⟨S1650000, .i32⟩
  | .hbm, ⟨65, _⟩ => ⟨S1650000, .i32⟩
  | .hbm, ⟨66, _⟩ => ⟨S1650000x1, .i32⟩
  | .hbm, ⟨67, _⟩ => ⟨S1650000x64, .f32⟩
  | .hbm, ⟨68, _⟩ => ⟨S1650000x64, .f32⟩
  | .hbm, ⟨69, _⟩ => ⟨S1650000x64, .f32⟩
  | .hbm, ⟨70, _⟩ => ⟨S_, .f32⟩
  | .hbm, ⟨71, _⟩ => ⟨S1650000, .f32⟩
  | .hbm, ⟨72, _⟩ => ⟨S1650000x1, .f32⟩
  | .hbm, ⟨73, _⟩ => ⟨S_, .i32⟩
  | .hbm, ⟨74, _⟩ => ⟨S_, .f32⟩
  | .hbm, ⟨75, _⟩ => ⟨S1654784x1, .f32⟩
  | .hbm, ⟨76, _⟩ => ⟨S1x32, .f32⟩
  | .hbm, ⟨77, _⟩ => ⟨S1x32, .f32⟩
  | .hbm, ⟨78, _⟩ => ⟨S1x1, .f32⟩
  | .hbm, ⟨79, _⟩ => ⟨S1654784x1, .f32⟩
  | .hbm, ⟨80, _⟩ => ⟨S1650000x1, .f32⟩
  | .hbm, ⟨81, _⟩ => ⟨S1650000x1, .f32⟩
  | .hbm, ⟨82, _⟩ => ⟨S1650000x1, .f32⟩
  | .hbm, ⟨83, _⟩ => ⟨S_, .i32⟩
  | .hbm, ⟨84, _⟩ => ⟨S1650000, .i32⟩
  | .hbm, ⟨85, _⟩ => ⟨S1650000, .i1⟩
  | .hbm, ⟨86, _⟩ => ⟨S_, .i32⟩
  | .hbm, ⟨87, _⟩ => ⟨S1650000, .i32⟩
  | .hbm, ⟨88, _⟩ => ⟨S1650000, .i32⟩
  | .hbm, ⟨89, _⟩ => ⟨S1650000, .i32⟩
  | .hbm, ⟨90, _⟩ => ⟨S1650000x1, .i32⟩
  | .hbm, ⟨91, _⟩ => ⟨S1650000x128, .f32⟩
  | .hbm, ⟨92, _⟩ => ⟨S1650000x128, .f32⟩
  | .hbm, ⟨93, _⟩ => ⟨S1650000x128, .f32⟩
  | .hbm, ⟨94, _⟩ => ⟨S_, .f32⟩
  | .hbm, ⟨95, _⟩ => ⟨S50000x128, .f32⟩
  | .hbm, ⟨96, _⟩ => ⟨S1650000x1, .i32⟩
  | .hbm, ⟨97, _⟩ => ⟨S50000x128, .f32⟩
  | .hbm, ⟨98, _⟩ => ⟨S128x128, .bf16⟩
  | .hbm, ⟨99, _⟩ => ⟨S1x128, .f32⟩
  | .hbm, ⟨100, _⟩ => ⟨S50000x128, .f32⟩
  | .hbm, ⟨101, _⟩ => ⟨S50000x192, .f32⟩
  | .local _ .vmem, ⟨0, _⟩ => ⟨S8192x1, .f32⟩
  | .local _ .vmem, ⟨1, _⟩ => ⟨S8192x1, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x1, .f32⟩
  | .local _ .vmem, ⟨6, _⟩ => ⟨S8192x1, .f32⟩
  | .local _ .vmem, ⟨7, _⟩ => ⟨S8192x1, .f32⟩
  | .local _ .vmem, ⟨8, _⟩ => ⟨S2000x128, .f32⟩
  | .local _ .vmem, ⟨9, _⟩ => ⟨S2000x128, .f32⟩
  | .local _ .vmem, ⟨10, _⟩ => ⟨S128x128, .bf16⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | _, _ => ⟨S50000x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_call1_v0 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![202], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S50000x192_S50000x64_0_0 : S50000x192.Slices ![0, 0] S50000x64
  slices_S50000x192_S50000x128_0_64 : S50000x192.Slices ![0, 64] S50000x128
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  reducesTo_S1650000x64_S1650000_d1 : S1650000x64.ReducesTo [1] S1650000
  h_S_ : 0 < S_.numel
  pads_S1650000x1_S1654784x1_047840_000 : S1650000x1.Pads (![0, 0] : Fin 2 → Nat) ![4784, 0] ![0, 0] S1654784x1
  shapeCasts_S32_S1x32 : S32.ShapeCasts S1x32
  shapeCasts_S32x1_S1x32 : S32x1.ShapeCasts S1x32
  shapeCasts_S1_S1x1 : S1.ShapeCasts S1x1
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S1x32_S1x32_0_0 : ∀ a, (![0, 0] : Fin 2 → Nat) a + S1x32.size a ≤ S1x32.size a
  h_S1x32 : 0 < S1x32.numel
  broadcasts_S8192x1_S8192x32 : S8192x1.Broadcasts S8192x32
  broadcasts_S1x32_S8192x32 : S1x32.Broadcasts S8192x32
  shapeCasts_S1x32_S1x32 : S1x32.ShapeCasts S1x32
  reduces_S8192x32_S8192 : S8192x32.Reduces [1] S8192
  shapeCasts_S8192_S8192x1 : S8192.ShapeCasts S8192x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  slices_S1654784x1_S1650000x1_0_0 : S1654784x1.Slices ![0, 0] S1650000x1
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  concatenates_S50000x64_S50000x128_S50000x192_d1 : Shape.Concatenates [S50000x64, S50000x128] S50000x192 1
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S1654784x1.size a
  hwx0_0 : ∀ i : grid0.Coords, EltTy.bits .f32 = 32 ∨ (Rect.block (s := S1654784x1) S8192x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x1.size a ≤ S1654784x1.size a
  hwx0_5 : ∀ i : grid0.Coords, EltTy.bits .f32 = 32 ∨ (Rect.block (s := S1654784x1) S8192x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v50) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v52) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v53) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v54) S8192x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v69) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v70) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v71) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v72) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x192 : Shape := ⟨2, ![50000, 192]⟩
abbrev S2x1600000 : Shape := ⟨2, ![2, 1600000]⟩
abbrev S128x128 : Shape := ⟨2, ![128, 128]⟩
abbrev S128 : Shape := ⟨1, ![128]⟩
abbrev S1x32 : Shape := ⟨2, ![1, 32]⟩
abbrev S32 : Shape := ⟨1, ![32]⟩
abbrev S32x1 : Shape := ⟨2, ![32, 1]⟩
abbrev S1 : Shape := ⟨1, ![1]⟩
abbrev S50000x64 : Shape := ⟨2, ![50000, 64]⟩
abbrev S50000x128 : Shape := ⟨2, ![50000, 128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x64 : Shape := ⟨2, ![1650000, 64]⟩
abbrev S1650000x32 : Shape := ⟨2, ![1650000, 32]⟩
abbrev S1x1 : Shape := ⟨2, ![1, 1]⟩
abbrev S1650000x128 : Shape := ⟨2, ![1650000, 128]⟩
abbrev S1x128 : Shape := ⟨2, ![1, 128]⟩

abbrev nBuf : Space → Nat
  | .hbm => 112
  | .vmem => 0
  | .smem => 0
  | _ => 0

abbrev bufTy : (tb : Table) → Fin (tcTables nBuf tb) → BufTy
  | .hbm, ⟨0, _⟩ => ⟨S50000x192, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S50000x64, .f32⟩
  | .hbm, ⟨9, _⟩ => ⟨S50000x128, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S1650000, .f32⟩
  | .hbm, ⟨41, _⟩ => ⟨S_, .i32⟩
  | .hbm, ⟨42, _⟩ => ⟨S1650000, .i32⟩
  | .hbm, ⟨43, _⟩ => ⟨S1650000, .i1⟩
  | .hbm, ⟨44, _⟩ => ⟨S_, .i32⟩
  | .hbm, ⟨45, _⟩ => ⟨S1650000, .i32⟩
  | .hbm, ⟨46, _⟩ => ⟨S1650000, .i32⟩
  | .hbm, ⟨47, _⟩ => ⟨S1650000, .i32⟩
  | .hbm, ⟨48, _⟩ => ⟨S1650000x1, .i32⟩
  | .hbm, ⟨49, _⟩ => ⟨S1650000, .f32⟩
  | .hbm, ⟨50, _⟩ => ⟨S1650000, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000x64, .f32⟩
  | .hbm, ⟨60, _⟩ => ⟨S_, .i32⟩
  | .hbm, ⟨61, _⟩ => ⟨S1650000, .i32⟩
  | .hbm, ⟨62, _⟩ => ⟨S1650000, .i1⟩
  | .hbm, ⟨63, _⟩ => ⟨S_, .i32⟩
  | .hbm, ⟨64, _⟩ => ⟨S1650000, .i32⟩
  | .hbm, ⟨65, _⟩ => ⟨S1650000, .i32⟩
  | .hbm, ⟨66, _⟩ => ⟨S1650000, .i32⟩
  | .hbm, ⟨67, _⟩ => ⟨S1650000x1, .i32⟩
  | .hbm, ⟨68, _⟩ => ⟨S1650000x64, .f32⟩
  | .hbm, ⟨69, _⟩ => ⟨S1650000x64, .f32⟩
  | .hbm, ⟨70, _⟩ => ⟨S1650000x64, .f32⟩
  | .hbm, ⟨71, _⟩ => ⟨S_, .f32⟩
  | .hbm, ⟨72, _⟩ => ⟨S1650000, .f32⟩
  | .hbm, ⟨73, _⟩ => ⟨S1650000x1, .f32⟩
  | .hbm, ⟨74, _⟩ => ⟨S1650000x32, .f32⟩
  | .hbm, ⟨75, _⟩ => ⟨S1x32, .f32⟩
  | .hbm, ⟨76, _⟩ => ⟨S1650000x32, .f32⟩
  | .hbm, ⟨77, _⟩ => ⟨S1650000x32, .f32⟩
  | .hbm, ⟨78, _⟩ => ⟨S1650000x1, .f32⟩
  | .hbm, ⟨79, _⟩ => ⟨S1x1, .f32⟩
  | .hbm, ⟨80, _⟩ => ⟨S1650000x1, .f32⟩
  | .hbm, ⟨81, _⟩ => ⟨S1650000x1, .f32⟩
  | .hbm, ⟨82, _⟩ => ⟨S1650000x1, .f32⟩
  | .hbm, ⟨83, _⟩ => ⟨S1650000x1, .f32⟩
  | .hbm, ⟨84, _⟩ => ⟨S_, .f32⟩
  | .hbm, ⟨85, _⟩ => ⟨S1650000x1, .f32⟩
  | .hbm, ⟨86, _⟩ => ⟨S1650000x1, .f32⟩
  | .hbm, ⟨87, _⟩ => ⟨S_, .f32⟩
  | .hbm, ⟨88, _⟩ => ⟨S1650000x1, .f32⟩
  | .hbm, ⟨89, _⟩ => ⟨S1650000x1, .f32⟩
  | .hbm, ⟨90, _⟩ => ⟨S1650000x1, .f32⟩
  | .hbm, ⟨91, _⟩ => ⟨S1650000x1, .f32⟩
  | .hbm, ⟨92, _⟩ => ⟨S_, .i32⟩
  | .hbm, ⟨93, _⟩ => ⟨S1650000, .i32⟩
  | .hbm, ⟨94, _⟩ => ⟨S1650000, .i1⟩
  | .hbm, ⟨95, _⟩ => ⟨S_, .i32⟩
  | .hbm, ⟨96, _⟩ => ⟨S1650000, .i32⟩
  | .hbm, ⟨97, _⟩ => ⟨S1650000, .i32⟩
  | .hbm, ⟨98, _⟩ => ⟨S1650000, .i32⟩
  | .hbm, ⟨99, _⟩ => ⟨S1650000x1, .i32⟩
  | .hbm, ⟨100, _⟩ => ⟨S1650000x128, .f32⟩
  | .hbm, ⟨101, _⟩ => ⟨S1650000x128, .f32⟩
  | .hbm, ⟨102, _⟩ => ⟨S1650000x128, .f32⟩
  | .hbm, ⟨103, _⟩ => ⟨S_, .f32⟩
  | .hbm, ⟨104, _⟩ => ⟨S50000x128, .f32⟩
  | .hbm, ⟨105, _⟩ => ⟨S1650000x1, .i32⟩
  | .hbm, ⟨106, _⟩ => ⟨S50000x128, .f32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | .hbm, ⟨111, _⟩ => ⟨S50000x192, .f32⟩
  | _, _ => ⟨S50000x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_c_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_c_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩

abbrev nD : Nat := 1
abbrev τ : Topo := Topo.v7x

variable {F : FTy → Type} [FloatOps F]

class Facts₀ : Prop where
  slices_S50000x192_S50000x64_0_0 : S50000x192.Slices ![0, 0] S50000x64
  slices_S50000x192_S50000x128_0_64 : S50000x192.Slices ![0, 64] S50000x128
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  reducesTo_S1650000x64_S1650000_d1 : S1650000x64.ReducesTo [1] S1650000
  h_S_ : 0 < S_.numel
  bcast_S32_S1x32_1 : S32.BroadcastsInDim S1x32 (![1] : Fin 1 → Fin S1x32.rank)
  bcast_S1x32_S1650000x32_0_1 : S1x32.BroadcastsInDim S1650000x32 (![0, 1] : Fin 2 → Fin S1650000x32.rank)
  bcast_S1_S1x1_1 : S1.BroadcastsInDim S1x1 (![1] : Fin 1 → Fin S1x1.rank)
  bcast_S1x1_S1650000x1_0_1 : S1x1.BroadcastsInDim S1650000x1 (![0, 1] : Fin 2 → Fin S1650000x1.rank)
  bcast_S_S1650000x1 : S_.BroadcastsInDim S1650000x1 (![] : Fin 0 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x64_S50000x128_S50000x192_d1 : Shape.Concatenates [S50000x64, S50000x128] S50000x192 1
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  dot_S1650000x1_S1x32_S1650000x32_1_0_0_1_n_n_wf : DotDims.WF S1650000x1 S1x32 S1650000x32 [1] [0] [0] [1] [] []
  dot_S1650000x32_S32x1_S1650000x1_1_0_0_1_n_n_wf : DotDims.WF S1650000x32 S32x1 S1650000x1 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x128_S50000x128_1_0_0_1_n_n_wf : DotDims.WF S50000x128 S128x128 S50000x128 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def dot_S1650000x1_S1x32_S1650000x32_1_0_0_1_n_n : DotDims S1650000x1 S1x32 S1650000x32 where
  lhsContracting := [1]
  rhsContracting := [0]
  lhsNonContracting := [0]
  rhsNonContracting := [1]
  lhsBatch := []
  rhsBatch := []
  wf := dot_S1650000x1_S1x32_S1650000x32_1_0_0_1_n_n_wf
def dot_S1650000x32_S32x1_S1650000x1_1_0_0_1_n_n : DotDims S1650000x32 S32x1 S1650000x1 where
  lhsContracting := [1]
  rhsContracting := [0]
  lhsNonContracting := [0]
  rhsNonContracting := [1]
  lhsBatch := []
  rhsBatch := []
  wf := dot_S1650000x32_S32x1_S1650000x1_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run with its result NAMED.

  @main is nine segments: five stretches of host operations, the edge-MLP region, one more stretch, the linear
  region, and the final concatenation. The generated frame certificate follows the buffer contents through these
  segments as a fold W0, W1, …, W9 from the launch memory and proves that every unscoped buffer ends at W9. Its
  stated post keeps only the eight argument arrays; here the same launch theorem is read once more with the
  result buffer kept as well: after every weakly fair execution the result array holds W9 at its reference.
-/
import proofs.«153934_j14190571946497_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last
    boundary's contents and the argument arrays as launched. -/
theorem run_fold : θ_run defs (onTc (τ := τ) (main (F := F))) ⟨m, fun _ => 0, ρ⟩ (fun r => ∀ c : Dev nD,
      r.2.mem ((c.tc : Thread nD τ).loc main_v73) = W9 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v73 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.RunValue

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibKeepdims.lean ====
/-
  A vector spread over a matrix, read at an entry.

  `broadcast_in_dim` places a vector along one axis of a matrix in two steps: first under a unit axis, then across
  that axis. A vector `v : [a]` sent to `[a, 1]` and then to `[a, b]` is constant along each row: entry `(i, j)` is
  `v i`. A vector `v : [b]` sent to `[1, b]` and then to `[a, b]` is constant along each column: entry `(i, j)` is
  `v j`. A scalar constant sent to any shape reads the constant everywhere.
-/
import Idealize.ShloMosaic.Lib.ValueIdx
import Idealize.ShloMosaic.Lib.Pipeline.Value

noncomputable section

namespace Idealize.ShloMosaic.Keepdims

open Idealize.ShloMosaic Idealize.ShloMosaic.ValueIdx

variable {α : Type}

/-- A vector of row values spread across the columns: entry `(i, j)` is the row's value. -/
theorem rows_apply {a b : Nat} (h1 : (⟨1, ![a]⟩ : Shape).BroadcastsInDim ⟨2, ![a, 1]⟩ ![0])
    (h2 : (⟨2, ![a, 1]⟩ : Shape).BroadcastsInDim ⟨2, ![a, b]⟩ ![0, 1]) (v : (⟨1, ![a]⟩ : Shape).Idx → α)
    (i : Fin a) (j : Fin b) :
    broadcastInDim (⟨2, ![a, b]⟩ : Shape) ![0, 1] h2 (broadcastInDim (⟨2, ![a, 1]⟩ : Shape) ![0] h1 v) (ix2 i j) = v (ix1 i) := by
  refine (broadcastInDim_apply _ h2 _ (ix2 i j) (ix2 i (0 : Fin 1)) (fun x => ?_)).trans
    (broadcastInDim_apply _ h1 v (ix2 i (0 : Fin 1)) (ix1 i) (fun x => ?_))
  · match x with
    | ⟨0, _⟩ =>
      show i.val = if a = 1 then 0 else i.val
      split_ifs with h
      · have := i.isLt; omega
      · rfl
    | ⟨1, _⟩ =>
      show 0 = if (1 : Nat) = 1 then 0 else j.val
      rw [if_pos rfl]
  · match x with
    | ⟨0, _⟩ =>
      show i.val = if a = 1 then 0 else i.val
      split_ifs with h
      · have := i.isLt; omega
      · rfl

/-- A vector of column values spread down the rows: entry `(i, j)` is the column's value. -/
theorem cols_apply {a b : Nat} (h1 : (⟨1, ![b]⟩ : Shape).BroadcastsInDim ⟨2, ![1, b]⟩ ![1])
    (h2 : (⟨2, ![1, b]⟩ : Shape).BroadcastsInDim ⟨2, ![a, b]⟩ ![0, 1]) (v : (⟨1, ![b]⟩ : Shape).Idx → α)
    (i : Fin a) (j : Fin b) :
    broadcastInDim (⟨2, ![a, b]⟩ : Shape) ![0, 1] h2 (broadcastInDim (⟨2, ![1, b]⟩ : Shape) ![1] h1 v) (ix2 i j) = v (ix1 j) := by
  refine (broadcastInDim_apply _ h2 _ (ix2 i j) (ix2 (0 : Fin 1) j) (fun x => ?_)).trans
    (broadcastInDim_apply _ h1 v (ix2 (0 : Fin 1) j) (ix1 j) (fun x => ?_))
  · match x with
    | ⟨0, _⟩ =>
      show 0 = if (1 : Nat) = 1 then 0 else i.val
      rw [if_pos rfl]
    | ⟨1, _⟩ =>
      show j.val = if b = 1 then 0 else j.val
      split_ifs with h
      · have := j.isLt; omega
      · rfl
  · match x with
    | ⟨0, _⟩ =>
      show j.val = if b = 1 then 0 else j.val
      split_ifs with h
      · have := j.isLt; omega
      · rfl

/-- A vector stood up as a one-column matrix: entry `(i, 0)` is the vector's entry `i`. -/
theorem column_apply {a : Nat} (h1 : (⟨1, ![a]⟩ : Shape).BroadcastsInDim ⟨2, ![a, 1]⟩ ![0])
    (v : (⟨1, ![a]⟩ : Shape).Idx → α) (i : Fin a) :
    broadcastInDim (⟨2, ![a, 1]⟩ : Shape) ![0] h1 v (ix2 i (0 : Fin 1)) = v (ix1 i) := by
  refine broadcastInDim_apply _ h1 v (ix2 i (0 : Fin 1)) (ix1 i) (fun x => ?_)
  match x with
  | ⟨0, _⟩ =>
    show i.val = if a = 1 then 0 else i.val
    split_ifs with h
    · have := i.isLt; omega
    · rfl

end Idealize.ShloMosaic.Keepdims

end
-- ==== Proof.LibDenseVec.lean ====
/-
  Matrix products and scalar splats read at an entry, on the extended reals.

  A vector program multiplies an [n, K] block by a [K, N] matrix into a zero accumulator; the host contracts the same
  axes with `dot_general`. Read at the entry (r, j) both are the textbook sum ∑ k < K, x (r, k) · w (k, j), for any
  extents and any dimension record that contracts the left operand's second axis with the right operand's first.
  The host lays a vector along every row of a matrix in two `broadcast_in_dim` steps (under a unit axis, then across
  it) and sends a scalar constant to every entry of an array by one; both idioms are named here, with what they read
  at an entry. The f32 word 0x3F800000 is the number one.
-/
import Idealize.ShloMosaic.Lib.ValueIdx
import Idealize.ShloMosaic.Lib.Pipeline.Value
import Idealize.ShloMosaic.PureOps.Ideal.Laws
import proofs.«153934_j14190571946497_2_alg».proof.Proof.LibContract
import proofs.«153934_j14190571946497_2_alg».proof.Proof.LibKeepdims

noncomputable section

open scoped BigOperators

namespace Idealize.ShloMosaic.DenseVec

open Idealize.ShloMosaic Idealize.ShloMosaic.ValueIdx

variable {n K N : ℕ}

/-- What a dimension record of an [n, K] · [K, N] product owes for its contraction to be the plain sum over the shared
    axis: one contracting axis of extent K, left axis 1 against right axis 0, and the free axes reading the result's
    coordinates. -/
structure Plain (D : DotDims (⟨2, ![n, K]⟩ : Shape) (⟨2, ![K, N]⟩ : Shape) (⟨2, ![n, N]⟩ : Shape)) : Prop where
  rank : D.contr.rank = 1
  size : ∀ h : 0 < D.contr.rank, D.contr.size ⟨0, h⟩ = K
  lhs : D.lhsContracting = [1]
  rhs : D.rhsContracting = [0]
  row : ∀ j q, (D.lhsIdx j q 0).val = (j 0).val
  col : ∀ j q, (D.rhsIdx j q 1).val = (j 1).val

/-- A vector program's product into the zero accumulator, at (r, j): ∑ k, x (r, k) · w (k, j). -/
theorem matmul_zero_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    matmul D prec x w (constant (F := Ideal) (⟨2, ![n, N]⟩ : Shape) .f32 0x00000000#32) (ix2 r j)
      = ∑ k : Fin K, x (ix2 r k) * w (ix2 k j) :=
  (Ideal.matmul_constant_zero_apply D prec x w (ix2 r j)).trans
    (Contract2.sum_contr_eq_sum_fin (M := EReal) D hD.rank (hD.size _) hD.lhs hD.rhs hD.row hD.col x w (ix2 r j))

/-- The host's `dot_general` over the same axes, at (r, j): the same sum. -/
theorem dotGeneral_ix2 {D : DotDims (⟨2, ![n, K]⟩ : Shape) (⟨2, ![K, N]⟩ : Shape) (⟨2, ![n, N]⟩ : Shape)} (hD : Plain D)
    {φ₁ φ₂ : FTy} (prec : Option ContractPrecision) (x : FVec Ideal (⟨2, ![n, K]⟩ : Shape) φ₁)
    (w : FVec Ideal (⟨2, ![K, N]⟩ : Shape) φ₂) (r : Fin n) (j : Fin N) :
    Host.dotGeneral D prec x w (ix2 r j) = ∑ k : Fin K, x (ix2 r k) * w (ix2 k j) :=
  (Ideal.dotGeneral_apply D prec _ x w (ix2 r j)).trans
    (Contract2.sum_contr_eq_sum_fin (M := EReal) D hD.rank (hD.size _) hD.lhs hD.rhs hD.row hD.col x w (ix2 r j))

/-- A vector laid along every row of an [n, N] matrix in the host's spelling: sent under a unit axis, then across it. -/
def spreadCols {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α) :
    (⟨2, ![n, N]⟩ : Shape).Idx → α :=
  broadcastInDim (⟨2, ![n, N]⟩ : Shape) ![0, 1] h2 (broadcastInDim (⟨2, ![1, N]⟩ : Shape) ![1] h1 b)

/-- At (r, j) it reads the vector's entry j. -/
theorem spreadCols_apply {α : Type} (h1 : (⟨1, ![N]⟩ : Shape).BroadcastsInDim ⟨2, ![1, N]⟩ ![1])
    (h2 : (⟨2, ![1, N]⟩ : Shape).BroadcastsInDim ⟨2, ![n, N]⟩ ![0, 1]) (b : (⟨1, ![N]⟩ : Shape).Idx → α)
    (r : Fin n) (j : Fin N) : spreadCols h1 h2 b (ix2 r j) = b (ix1 j) :=
  Keepdims.cols_apply h1 h2 b r j

/-- A scalar constant sent to every entry of an array (a `broadcast_in_dim` along no axis). -/
def splat {F : FTy → Type} [FloatOps F] {s : Shape} {φ : FTy} (h : (⟨0, ![]⟩ : Shape).BroadcastsInDim s ![])
    (b : BitVec φ.bits) : FVec F s φ :=
  broadcastInDim s ![] h (constant (F := F) (⟨0, ![]⟩ : Shape) φ b)

/-- On the extended reals every entry reads the constant's value. -/
theorem splat_apply {s : Shape} {φ : FTy} (h : (⟨0, ![]⟩ : Shape).BroadcastsInDim s ![]) (b : BitVec φ.bits) (i : s.Idx) :
    splat (F := Ideal) h b i = Ideal.ofBits φ b := rfl

/-- The f32 word 0x3F800000 is the number one. -/
theorem ofBits_one_f32 : Ideal.ofBits .f32 0x3F800000#32 = 1 := by
  simp [Ideal.ofBits, Ideal.ieee, -EReal.coe_mul]; norm_num

end Idealize.ShloMosaic.DenseVec

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payloads.lean ====
/-
  What the two kernel bodies compute, entry by entry, on the extended reals.

  The edge kernel takes a block of squared distances x (one per edge, a column), the first layer's weights w1 and bias
  b1 (rows of 32), the second layer's weights w2 (a row of 32) and bias b2 (one number), and stores for the edge in
  row p the logistic function of  (∑ d < 32, (x p · w1 d + b1 d) · w2 d) + b2 : a 1 → 32 → 1 perceptron with no inner
  activation, followed by the sigmoid.

  The linear kernel takes a block of rows M, the 128 × 128 weight matrix w (stored in the short format, which is the
  same number on the extended reals) and the bias row b, and stores at (p, q) the number (∑ k < 128, M (p,k) · w (k,q)) + b q.
-/
import proofs.«153934_j14190571946497_2_alg».proof.Proof.Gen.KernelIdeal.Skeleton
import proofs.«153934_j14190571946497_2_alg».proof.Proof.LibDenseVec
import proofs.«153934_j14190571946497_2_alg».proof.Proof.LibRowSum
import proofs.«153934_j14190571946497_2_alg».proof.Proof.LibColumn
import Idealize.ShloMosaic.Lib.ValueLayout
import Idealize.ShloMosaic.Lib.Pipeline.Value

noncomputable section

open scoped BigOperators

namespace Cert.KernelIdeal.Bodies

open Cert.KernelIdeal Cert.KernelIdeal.Gen Idealize.ShloMosaic Idealize.ShloMosaic.ValueIdx

/-- The edge perceptron and sigmoid of a whole column of squared distances: entry (e, ·) of the result. -/
def edgeGate {n : ℕ} (x : (⟨2, ![n, 1]⟩ : Shape).Idx → EReal) (w1 b1 w2 : (⟨2, ![1, 32]⟩ : Shape).Idx → EReal)
    (b2 : (⟨2, ![1, 1]⟩ : Shape).Idx → EReal) : (⟨2, ![n, 1]⟩ : Shape).Idx → EReal :=
  fun i => Ideal.logistic ((∑ d : Fin 32, (x (ix2 (i 0) (0 : Fin 1)) * w1 (ix2 (0 : Fin 1) d) + b1 (ix2 (0 : Fin 1) d)) * w2 (ix2 (0 : Fin 1) d))
    + b2 (ix2 (0 : Fin 1) (0 : Fin 1)))

/-- The dense layer M · w + b of a whole matrix of rows: entry (r, q) of the result. -/
def dense {n : ℕ} (M : (⟨2, ![n, 128]⟩ : Shape).Idx → EReal) (w : (⟨2, ![128, 128]⟩ : Shape).Idx → EReal)
    (b : (⟨2, ![1, 128]⟩ : Shape).Idx → EReal) : (⟨2, ![n, 128]⟩ : Shape).Idx → EReal :=
  fun i => (∑ k : Fin 128, M (ix2 (i 0) k) * w (ix2 k (i 1))) + b (ix2 (0 : Fin 1) (i 1))

/-- The linear kernel's product contracts the rows' second axis with the weights' first. -/
theorem dot_plain : DenseVec.Plain dot_S2000x128_S128x128_S2000x128_1_0_0_1_n_n where
  rank := rfl
  size := fun _ => rfl
  lhs := rfl
  rhs := rfl
  row := fun _ _ => rfl
  col := fun _ _ => rfl

/-- The linear kernel's stored value at (p, q). -/
theorem linear_entry (x0 : FVec Ideal S2000x128 .f32) (x1 : FVec Ideal S128x128 .bf16) (x2 : FVec Ideal S1x128 .f32)
    (p : Fin 2000) (q : Fin 128) :
    k1_pay1 (F := Ideal) x0 x1 x2 (ix2 p q) = (∑ k : Fin 128, x0 (ix2 p k) * x1 (ix2 k q)) + x2 (ix2 (0 : Fin 1) q) := by
  unfold k1_pay1
  simp only [shapeCast_self]
  rw [addf_apply]
  refine congrArg₂ (· + ·) ?_ ?_
  · exact (DenseVec.matmul_zero_ix2 dot_plain none _ _ p q).trans (Finset.sum_congr rfl fun k _ => rfl)
  · exact broadcastTo_1b_ab_apply _ _ p q

/-- The edge kernel's stored value in row p. -/
theorem edge_entry (x0 : FVec Ideal S8192x1 .f32) (x1 x2 x3 : FVec Ideal S1x32 .f32) (x4 : FVec Ideal S1x1 .f32)
    (p : Fin 8192) (u : Fin 1) :
    k0_pay1 (F := Ideal) x0 x1 x2 x3 x4 (ix2 p u)
      = Ideal.logistic ((∑ d : Fin 32, (x0 (ix2 p (0 : Fin 1)) * x1 (ix2 (0 : Fin 1) d) + x2 (ix2 (0 : Fin 1) d)) * x3 (ix2 (0 : Fin 1) d))
          + x4 (ix2 (0 : Fin 1) (0 : Fin 1))) := by
  unfold k0_pay1
  simp only [shapeCast_self]
  refine congrArg Ideal.logistic ?_
  rw [addf_apply]
  refine congrArg₂ (· + ·) ?_ ?_
  · rw [shapeCast_a_a1_apply]
    refine (multiReduction_add_rows_apply _ _ _ _ p).trans (Finset.sum_congr rfl fun d _ => ?_)
    rw [mulf_apply, addf_apply, mulf_apply, broadcastTo_a1_ab_apply, broadcastTo_1b_ab_apply, broadcastTo_1b_ab_apply,
      broadcastTo_1b_ab_apply]
  · have hu : u = 0 := Subsingleton.elim _ _
    subst hu
    exact broadcastTo_1b_ab_apply (a := 8192) (b := 1) _ _ p (0 : Fin 1)

end Cert.KernelIdeal.Bodies

end
-- ==== Proof.LinearRegion.lean ====
/-
  The linear region: from blocks to the whole array.

  The region's grid has 25 points; point t reads rows 2000·t … 2000·t + 1999 of the message matrix, the whole weight
  matrix and the whole bias row, and writes back rows 2000·t … 2000·t + 1999 of the result. Each written block is
  therefore the matching block of ONE whole-array function of the region's operands — the dense layer M · w + b —
  and the 25 blocks tile the 50000 rows, so the result array ends holding that function. Stated for any contents V of
  the buffers at the region's entry.
-/
import proofs.«153934_j14190571946497_2_alg».proof.Proof.Gen.KernelIdeal.Frame
import proofs.«153934_j14190571946497_2_alg».proof.Proof.Payloads

set_option maxRecDepth 16384

noncomputable section

namespace Cert.KernelIdeal.LinearRegion

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row blocks of the messages and of the result move with the point, the
    weights and the bias stay at block 0. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of a written block against the dense layer of the whole operands: the block's row p is row i of the
    matrix when the messages' block row p is the matrix's row i, and the weights and bias are read whole. -/
theorem block_entry (x0 : FVec Ideal S2000x128 .f32) (x1 : FVec Ideal S128x128 .bf16) (x2 : FVec Ideal S1x128 .f32)
    (M : S50000x128.Idx → EReal) (w : S128x128.Idx → EReal) (b : S1x128.Idx → EReal)
    (j : S2000x128.Idx) (i : S50000x128.Idx)
    (h0 : ∀ k : Fin 128, x0 (ix2 (j 0) k) = M (ix2 (i 0) k)) (h1 : ∀ y, x1 y = w y) (h2 : ∀ y, x2 y = b y)
    (hi : i 1 = j 1) :
    k1_pay1 (F := Ideal) x0 x1 x2 j = dense M w b i := by
  obtain ⟨p, q, rfl⟩ : ∃ (p : Fin 2000) (q : Fin 128), j = ix2 p q := ⟨j 0, j 1, eq_ix2 j⟩
  rw [linear_entry]
  unfold dense
  rw [hi, h2]
  refine congrArg₂ (· + ·) (Finset.sum_congr rfl fun k _ => ?_) rfl
  rw [h0 k, h1]

/-- What point t writes back is block t of the dense layer of the region's operands. -/
theorem flushed_eq (c : Dev nD) (t : Fin cfg1.N) :
    (dat1 V c).flushed 3 t
      = ((cfg1.win 3).blk t).view.read (Elt Ideal) (dense (V c main_v69) (V c main_v70) (V c main_v71)) := by
  show (cfg1.win 3).cut (grid1.coords t) ((dat1 V c).after 3 t) = _
  rw [after1_3]
  unfold out1_3
  rw [View.canon_unit_zero zero_offsets]
  simp only [View.ld_unit_zero (S := S2000x128) zero_offsets, View.ld_unit_zero (S := S128x128) zero_offsets,
    View.ld_unit_zero (S := S1x128) zero_offsets]
  obtain ⟨e0, e1, e2, e3, e4, e5, e6, e7⟩ := index_facts t
  funext j
  show k1_pay1 (F := Ideal) (iblk1 V c 0 t) (iblk1 V c 1 t) (iblk1 V c 2 t) j
    = dense (V c main_v69) (V c main_v70) (V c main_v71) (((cfg1.win 3).blk t).view.emb j)
  refine block_entry (iblk1 V c 0 t) (iblk1 V c 1 t) (iblk1 V c 2 t) (V c main_v69) (V c main_v70) (V c main_v71) j
    (((cfg1.win 3).blk t).view.emb j) (fun k => ?_) (fun y => ?_) (fun y => ?_) ?_
  · show V c main_v69 (((cfg1.win 0).blk t).view.emb (ix2 (j 0) k)) = V c main_v69 (ix2 ((((cfg1.win 3).blk t).view.emb j) 0) k)
    refine congrArg (V c main_v69) (funext fun a => Fin.ext ?_)
    match a with
    | ⟨0, _⟩ => show win1_0.index t (0 : Fin 2) * 2000 + 1 * (j 0).val = win1_3.index t (0 : Fin 2) * 2000 + 1 * (j 0).val; rw [e0, e6]
    | ⟨1, _⟩ => show win1_0.index t (1 : Fin 2) * 128 + 1 * k.val = k.val; rw [e1]; omega
  · show V c main_v70 (((cfg1.win 1).blk t).view.emb y) = V c main_v70 y
    refine congrArg (V c main_v70) (funext fun a => Fin.ext ?_)
    match a with
    | ⟨0, _⟩ => show win1_1.index t (0 : Fin 2) * 128 + 1 * (y 0).val = (y 0).val; rw [e2]; omega
    | ⟨1, _⟩ => show win1_1.index t (1 : Fin 2) * 128 + 1 * (y 1).val = (y 1).val; rw [e3]; omega
  · show V c main_v71 (((cfg1.win 2).blk t).view.emb y) = V c main_v71 y
    refine congrArg (V c main_v71) (funext fun a => Fin.ext ?_)
    match a with
    | ⟨0, _⟩ => show win1_2.index t (0 : Fin 2) * 1 + 1 * (y 0).val = (y 0).val; rw [e4]; omega
    | ⟨1, _⟩ => show win1_2.index t (1 : Fin 2) * 128 + 1 * (y 1).val = (y 1).val; rw [e5]; omega
  · refine Fin.ext ?_
    show win1_3.index t (1 : Fin 2) * 128 + 1 * (j 1).val = (j 1).val
    rw [e7]; omega

/-- Every row of the result lies in the block of the point that owns it: row r belongs to point r / 2000. -/
theorem covered (i : S50000x128.Idx) : ∃ t : Fin cfg1.N, (cfg1.win 3).flush t = true ∧ i ∈ ((cfg1.win 3).blk t).view.set := by
  have hN : cfg1.N = 25 := N_1
  have h0 : (i 0).val < 50000 := (i 0).isLt
  have h1 : (i 1).val < 128 := (i 1).isLt
  have ht : (i 0).val / 2000 < cfg1.N := by rw [hN]; omega
  obtain ⟨e0, e1, e2, e3, e4, e5, e6, e7⟩ := index_facts ⟨(i 0).val / 2000, ht⟩
  refine ⟨⟨(i 0).val / 2000, ht⟩, flush1_3 _, ?_⟩
  show i ∈ ((View.whole main_v72).slice (win1_3.rect ⟨(i 0).val / 2000, ht⟩)).set
  rw [View.set_slice_whole, Rect.mem_set_unit]
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, ht⟩ (1 : Fin 2) * 128 ≤ (i 1).val ∧ (i 1).val < win1_3.index ⟨(i 0).val / 2000, ht⟩ (1 : Fin 2) * 128 + 128
    rw [e7]; omega

/-- THE RESULT ARRAY of the linear region: the dense layer of its operands as the region finds them. -/
theorem final (c : Dev nD) :
    (dat1 V c).arrAt 3 cfg1.N = dense (V c main_v69) (V c main_v70) (V c main_v71) :=
  (dat1 V c).arrAt_eq_of_cover 3 (dense (V c main_v69) (V c main_v70) (V c main_v71))
    (fun t _ => flushed_eq V c t) covered

end Cert.KernelIdeal.LinearRegion

end
-- ==== Proof.EdgeRegion.lean ====
/-
  The edge region: from blocks to the whole array.

  The region's grid has 202 points; point t reads rows 8192·t … 8192·t + 8191 of the padded column of squared
  distances and the four small parameter arrays whole, and writes back the same rows of the result column. Each
  written block is the matching block of ONE whole-array function of the region's operands — the edge perceptron
  followed by the sigmoid, row by row — and the 202 blocks tile the 1654784 rows, so the result column ends holding
  that function. Stated for any contents V of the buffers at the region's entry.
-/
import proofs.«153934_j14190571946497_2_alg».proof.Proof.Gen.KernelIdeal.Frame
import proofs.«153934_j14190571946497_2_alg».proof.Proof.Payloads

set_option maxRecDepth 16384

noncomputable section

namespace Cert.KernelIdeal.EdgeRegion

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the distance column's and the result's row blocks move with the point,
    the four parameter arrays stay at block 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One entry of a written block against the gate of the whole operands. -/
theorem block_entry (x0 : FVec Ideal S8192x1 .f32) (x1 x2 x3 : FVec Ideal S1x32 .f32) (x4 : FVec Ideal S1x1 .f32)
    (X : S1654784x1.Idx → EReal) (w1 b1 w2 : S1x32.Idx → EReal) (b2 : S1x1.Idx → EReal)
    (j : S8192x1.Idx) (i : S1654784x1.Idx)
    (h0 : x0 (ix2 (j 0) (0 : Fin 1)) = X (ix2 (i 0) (0 : Fin 1))) (h1 : ∀ y, x1 y = w1 y) (h2 : ∀ y, x2 y = b1 y)
    (h3 : ∀ y, x3 y = w2 y) (h4 : ∀ y, x4 y = b2 y) :
    k0_pay1 (F := Ideal) x0 x1 x2 x3 x4 j = edgeGate X w1 b1 w2 b2 i := by
  obtain ⟨p, u, rfl⟩ : ∃ (p : Fin 8192) (u : Fin 1), j = ix2 p u := ⟨j 0, j 1, eq_ix2 j⟩
  rw [edge_entry]
  unfold edgeGate
  rw [h4]
  refine congrArg Ideal.logistic (congrArg₂ (· + ·) (Finset.sum_congr rfl fun d _ => ?_) rfl)
  rw [h1, h2, h3]
  exact congrArg (fun z => (z * w1 (ix2 (0 : Fin 1) d) + b1 (ix2 (0 : Fin 1) d)) * w2 (ix2 (0 : Fin 1) d)) h0

/-- What point t writes back is block t of the gate of the region's operands. -/
theorem flushed_eq (c : Dev nD) (t : Fin cfg0.N) :
    (dat0 V c).flushed 5 t
      = ((cfg0.win 5).blk t).view.read (Elt Ideal)
          (edgeGate (V c main_v50) (V c main_arg4) (V c main_v51) (V c main_v52) (V c main_v53)) := by
  show (cfg0.win 5).cut (grid0.coords t) ((dat0 V c).after 5 t) = _
  rw [after0_5]
  unfold out0_5
  rw [View.canon_unit_zero zero_offsets]
  simp only [View.ld_unit_zero (S := S8192x1) zero_offsets, View.ld_unit_zero (S := S1x32) zero_offsets,
    View.ld_unit_zero (S := S1x1) zero_offsets]
  obtain ⟨e0, e1, e2, e3, e4, e5, e6, e7, e8, e9, e10, e11⟩ := index_facts t
  funext j
  show k0_pay1 (F := Ideal) (iblk0 V c 0 t) (iblk0 V c 1 t) (iblk0 V c 2 t) (iblk0 V c 3 t) (iblk0 V c 4 t) j
    = edgeGate (V c main_v50) (V c main_arg4) (V c main_v51) (V c main_v52) (V c main_v53) (((cfg0.win 5).blk t).view.emb j)
  refine block_entry (iblk0 V c 0 t) (iblk0 V c 1 t) (iblk0 V c 2 t) (iblk0 V c 3 t) (iblk0 V c 4 t)
    (V c main_v50) (V c main_arg4) (V c main_v51) (V c main_v52) (V c main_v53) j
    (((cfg0.win 5).blk t).view.emb j) ?_ (fun y => ?_) (fun y => ?_) (fun y => ?_) (fun y => ?_)
  · show V c main_v50 (((cfg0.win 0).blk t).view.emb (ix2 (j 0) (0 : Fin 1))) = V c main_v50 (ix2 ((((cfg0.win 5).blk t).view.emb j) 0) (0 : Fin 1))
    refine congrArg (V c main_v50) (funext fun a => Fin.ext ?_)
    match a with
    | ⟨0, _⟩ => show win0_0.index t (0 : Fin 2) * 8192 + 1 * (j 0).val = win0_5.index t (0 : Fin 2) * 8192 + 1 * (j 0).val; rw [e0, e10]
    | ⟨1, _⟩ => show win0_0.index t (1 : Fin 2) * 1 + 1 * 0 = 0; rw [e1]
  · show V c main_arg4 (((cfg0.win 1).blk t).view.emb y) = V c main_arg4 y
    refine congrArg (V c main_arg4) (funext fun a => Fin.ext ?_)
    match a with
    | ⟨0, _⟩ => show win0_1.index t (0 : Fin 2) * 1 + 1 * (y 0).val = (y 0).val; rw [e2]; omega
    | ⟨1, _⟩ => show win0_1.index t (1 : Fin 2) * 32 + 1 * (y 1).val = (y 1).val; rw [e3]; omega
  · show V c main_v51 (((cfg0.win 2).blk t).view.emb y) = V c main_v51 y
    refine congrArg (V c main_v51) (funext fun a => Fin.ext ?_)
    match a with
    | ⟨0, _⟩ => show win0_2.index t (0 : Fin 2) * 1 + 1 * (y 0).val = (y 0).val; rw [e4]; omega
    | ⟨1, _⟩ => show win0_2.index t (1 : Fin 2) * 32 + 1 * (y 1).val = (y 1).val; rw [e5]; omega
  · show V c main_v52 (((cfg0.win 3).blk t).view.emb y) = V c main_v52 y
    refine congrArg (V c main_v52) (funext fun a => Fin.ext ?_)
    match a with
    | ⟨0, _⟩ => show win0_3.index t (0 : Fin 2) * 1 + 1 * (y 0).val = (y 0).val; rw [e6]; omega
    | ⟨1, _⟩ => show win0_3.index t (1 : Fin 2) * 32 + 1 * (y 1).val = (y 1).val; rw [e7]; omega
  · show V c main_v53 (((cfg0.win 4).blk t).view.emb y) = V c main_v53 y
    refine congrArg (V c main_v53) (funext fun a => Fin.ext ?_)
    match a with
    | ⟨0, _⟩ => show win0_4.index t (0 : Fin 2) * 1 + 1 * (y 0).val = (y 0).val; rw [e8]; omega
    | ⟨1, _⟩ => show win0_4.index t (1 : Fin 2) * 1 + 1 * (y 1).val = (y 1).val; rw [e9]; omega

/-- Every row of the result column lies in the block of the point that owns it: row r belongs to point r / 8192. -/
theorem covered (i : S1654784x1.Idx) : ∃ t : Fin cfg0.N, (cfg0.win 5).flush t = true ∧ i ∈ ((cfg0.win 5).blk t).view.set := by
  have hN : cfg0.N = 202 := N_0
  have h0 : (i 0).val < 1654784 := (i 0).isLt
  have h1 : (i 1).val < 1 := (i 1).isLt
  have ht : (i 0).val / 8192 < cfg0.N := by rw [hN]; omega
  obtain ⟨e0, e1, e2, e3, e4, e5, e6, e7, e8, e9, e10, e11⟩ := index_facts ⟨(i 0).val / 8192, ht⟩
  refine ⟨⟨(i 0).val / 8192, ht⟩, flush0_5 _, ?_⟩
  show i ∈ ((View.whole main_v54).slice (win0_5.rect ⟨(i 0).val / 8192, ht⟩)).set
  rw [View.set_slice_whole, Rect.mem_set_unit]
  intro a
  match a with
  | ⟨0, _⟩ =>
    show win0_5.index ⟨(i 0).val / 8192, ht⟩ (0 : Fin 2) * 8192 ≤ (i 0).val ∧ (i 0).val < win0_5.index ⟨(i 0).val / 8192, ht⟩ (0 : Fin 2) * 8192 + 8192
    rw [e10]; show (i 0).val / 8192 * 8192 ≤ (i 0).val ∧ (i 0).val < (i 0).val / 8192 * 8192 + 8192; omega
  | ⟨1, _⟩ =>
    show win0_5.index ⟨(i 0).val / 8192, ht⟩ (1 : Fin 2) * 1 ≤ (i 1).val ∧ (i 1).val < win0_5.index ⟨(i 0).val / 8192, ht⟩ (1 : Fin 2) * 1 + 1
    rw [e11]; omega

/-- THE RESULT COLUMN of the edge region: the gate of its operands as the region finds them. -/
theorem final (c : Dev nD) :
    (dat0 V c).arrAt 5 cfg0.N = edgeGate (V c main_v50) (V c main_arg4) (V c main_v51) (V c main_v52) (V c main_v53) :=
  (dat0 V c).arrAt_eq_of_cover 5 (edgeGate (V c main_v50) (V c main_arg4) (V c main_v51) (V c main_v52) (V c main_v53))
    (fun t _ => flushed_eq V c t) covered

end Cert.KernelIdeal.EdgeRegion

end
-- ==== Proof.CallForms.lean ====
/-
  The two called functions of the kernel program, read at their result buffers.

  @_where selects, entry by entry, the inverse root of the degree where the degree is positive and the zero constant
  elsewhere; @_pad appends 4784 rows holding the converted integer zero below the column of squared distances. Each
  is a short stretch of @main's fold. A called function's values live in buffers whose types are equal to the values'
  types by an equation between equal types; read at the result buffer the stretch is the plain operation of the
  buffers before it.
-/
import proofs.«153934_j14190571946497_2_alg».proof.Proof.Gen.KernelIdeal.Frame
import Idealize.ShloMosaic.PureOps.Ideal

set_option maxRecDepth 16384

noncomputable section

namespace Cert.KernelIdeal.CallForms

open Cert.KernelIdeal Cert.KernelIdeal.Gen
open Idealize.ShloMosaic Idealize.ShloMosaic.TcCoe Idealize.SL.Sem Idealize.ShloMosaic.StableHlo

/-- The node factor: the inverse root where the degree test holds, the zero constant spread over the nodes elsewhere. -/
theorem where_result (V : Valuation τ sig (Elt Ideal)) :
    StableHlo.after (hostOps0_1 (F := Ideal)) V (Proc.devRef .tc main_v16)
      = select (V (Proc.devRef .tc main_v14)) (V (Proc.devRef .tc main_v15))
          (broadcastInDim S50000 ![] bcast_S_S50000 (id (V (Proc.devRef .tc main_cst_2)))) := by
  dsimp only [hostOps0_1]
  after_results_simp
  rfl

/-- The padded column: the distance column with 4784 rows of the converted integer constant below it. -/
theorem pad_result (V : Valuation τ sig (Elt Ideal)) :
    StableHlo.after (hostOps0_3 (F := Ideal)) V (Proc.devRef .tc main_v50)
      = pad S1654784x1 ![0, 0] ![4784, 0] ![0, 0] (V (Proc.devRef .tc main_v49))
          (sitofp (F := Ideal) .f32 (V (Proc.devRef .tc main_c_11))) pads_S1650000x1_S1654784x1_047840_000 h_S_ := by
  dsimp only [hostOps0_3]
  after_results_simp
  rfl

end Cert.KernelIdeal.CallForms

end
-- ==== Proof.HostForms.lean ====
/-
  The reference's host spellings against the kernels' functions, entry by entry on the extended reals.

  * The reference's last layer is a `dot_general` of the aggregated messages with the weight matrix plus the bias
    spread down the rows; the linear kernel computes the dense layer of the same messages with the weights stored in
    the short format (the same numbers here) and the bias as a row. Both read (∑ k, M (r,k) · w (k,q)) + b q.
  * The reference's edge gate is two small products — the distance column times the 1 × 32 first layer, plus its bias,
    times the 32 × 1 second layer, plus its bias — under 1 / (1 + exp (−·)), the logistic function written out with
    one-words. The edge kernel computes, on the column padded below with 4784 more rows, the same perceptron and the
    logistic function; the first 1650000 rows of its result are the reference's gate: a padded row is never read.
  * The reference multiplies each edge's source factor by an array of ones before the target factor; x · 1 = x.
-/
import proofs.«153934_j14190571946497_2_alg».proof.Proof.Gen.ReferenceIdeal
import proofs.«153934_j14190571946497_2_alg».proof.Proof.Payloads
import Idealize.ShloMosaic.Lib.KernelVsHost

noncomputable section

open scoped BigOperators

namespace Cert.ReferenceIdeal.HostForms

open Cert.ReferenceIdeal Cert.KernelIdeal.Bodies Idealize.ShloMosaic Idealize.ShloMosaic.ValueIdx

theorem dot_last_plain : DenseVec.Plain dot_S50000x128_S128x128_S50000x128_1_0_0_1_n_n where
  rank := rfl
  size := fun _ => rfl
  lhs := rfl
  rhs := rfl
  row := fun _ _ => rfl
  col := fun _ _ => rfl

theorem dot_first_plain : DenseVec.Plain dot_S1650000x1_S1x32_S1650000x32_1_0_0_1_n_n where
  rank := rfl
  size := fun _ => rfl
  lhs := rfl
  rhs := rfl
  row := fun _ _ => rfl
  col := fun _ _ => rfl

theorem dot_second_plain : DenseVec.Plain dot_S1650000x32_S32x1_S1650000x1_1_0_0_1_n_n where
  rank := rfl
  size := fun _ => rfl
  lhs := rfl
  rhs := rfl
  row := fun _ _ => rfl
  col := fun _ _ => rfl

/-- The reference's last layer is the dense layer of the messages, the weights in the short format, the bias as a row. -/
theorem host_linear (M : FVec Ideal S50000x128 .f32) (w : FVec Ideal S128x128 .f32) (b : FVec Ideal S128 .f32)
    (h1 : S128.BroadcastsInDim S1x128 ![1]) (h2 : S1x128.BroadcastsInDim S50000x128 ![0, 1])
    (hlt : FTy.bits .bf16 < FTy.bits .f32) (hsc : S128.ShapeCasts S1x128) :
    addf (Host.dotGeneral dot_S50000x128_S128x128_S50000x128_1_0_0_1_n_n none M w)
        (broadcastInDim S50000x128 ![0, 1] h2 (broadcastInDim S1x128 ![1] h1 b))
      = dense M (truncf .bf16 w hlt) (shapeCast S1x128 b hsc) := by
  funext i
  obtain ⟨r, q, rfl⟩ : ∃ (r : Fin 50000) (q : Fin 128), i = ix2 r q := ⟨i 0, i 1, eq_ix2 i⟩
  unfold dense
  rw [addf_apply, DenseVec.dotGeneral_ix2 dot_last_plain, Keepdims.cols_apply]
  exact congrArg₂ (· + ·) (Finset.sum_congr rfl fun k _ => rfl) (shapeCast_a_1a_apply b hsc (0 : Fin 1) q).symm

/-- The f32 word 0x3F800000 spread over any shape reads one everywhere. -/
theorem ones_apply {s : Shape} (h : S_.BroadcastsInDim s ![]) (i : s.Idx) :
    broadcastInDim s ![] h (constant (F := Ideal) S_ .f32 0x3F800000#32) i = 1 :=
  DenseVec.ofBits_one_f32

/-- The reference's gate is the first 1650000 rows of the edge kernel's gate on the padded column. -/
theorem host_gate (X : FVec Ideal S1650000x1 .f32) (a4 : FVec Ideal S1x32 .f32) (a5 : FVec Ideal S32 .f32)
    (a6 : FVec Ideal S32x1 .f32) (a7 : FVec Ideal S1 .f32) (pv : FVec Ideal S_ .f32)
    (hone : S_.BroadcastsInDim S1650000x1 ![])
    (h5a : S32.BroadcastsInDim S1x32 ![1]) (h5b : S1x32.BroadcastsInDim S1650000x32 ![0, 1])
    (h7a : S1.BroadcastsInDim S1x1 ![1]) (h7b : S1x1.BroadcastsInDim S1650000x1 ![0, 1])
    (hp : S1650000x1.Pads (![0, 0] : Fin 2 → Nat) ![4784, 0] ![0, 0] (⟨2, ![1654784, 1]⟩ : Shape)) (hu : 0 < S_.numel)
    (h5 : S32.ShapeCasts S1x32) (h6 : S32x1.ShapeCasts S1x32) (h7 : S1.ShapeCasts (⟨2, ![1, 1]⟩ : Shape))
    (hsl : (⟨2, ![1654784, 1]⟩ : Shape).Slices ![0, 0] S1650000x1) :
    Host.divf (broadcastInDim S1650000x1 ![] hone (constant (F := Ideal) S_ .f32 0x3F800000#32))
        (addf (broadcastInDim S1650000x1 ![] hone (constant (F := Ideal) S_ .f32 0x3F800000#32))
          (Host.exp (Host.negf (addf
            (Host.dotGeneral dot_S1650000x32_S32x1_S1650000x1_1_0_0_1_n_n none
              (addf (Host.dotGeneral dot_S1650000x1_S1x32_S1650000x32_1_0_0_1_n_n none X a4)
                (broadcastInDim S1650000x32 ![0, 1] h5b (broadcastInDim S1x32 ![1] h5a a5))) a6)
            (broadcastInDim S1650000x1 ![0, 1] h7b (broadcastInDim (⟨2, ![1, 1]⟩ : Shape) ![1] h7a a7))))))
      = extractStridedSlice S1650000x1 ![0, 0]
          (edgeGate (pad (⟨2, ![1654784, 1]⟩ : Shape) ![0, 0] ![4784, 0] ![0, 0] X pv hp hu) a4
            (shapeCast S1x32 a5 h5) (shapeCast S1x32 a6 h6) (shapeCast (⟨2, ![1, 1]⟩ : Shape) a7 h7)) hsl := by
  funext i
  obtain ⟨e, u, rfl⟩ : ∃ (e : Fin 1650000) (u : Fin 1), i = ix2 e u := ⟨i 0, i 1, eq_ix2 i⟩
  have hu0 : u = 0 := Subsingleton.elim _ _
  subst hu0
  have he : e.val < 1654784 := by have := e.isLt; omega
  rw [slice2_axis0_apply 0 _ hsl e (0 : Fin 1) (⟨e.val, he⟩ : Fin 1654784) (Nat.zero_add _).symm]
  unfold edgeGate
  show Ideal.div (broadcastInDim S1650000x1 ![] hone (constant (F := Ideal) S_ .f32 0x3F800000#32) (ix2 e (0 : Fin 1)))
      (broadcastInDim S1650000x1 ![] hone (constant (F := Ideal) S_ .f32 0x3F800000#32) (ix2 e (0 : Fin 1))
        + Ideal.exp (-(Host.dotGeneral dot_S1650000x32_S32x1_S1650000x1_1_0_0_1_n_n none
              (addf (Host.dotGeneral dot_S1650000x1_S1x32_S1650000x32_1_0_0_1_n_n none X a4)
                (broadcastInDim S1650000x32 ![0, 1] h5b (broadcastInDim S1x32 ![1] h5a a5))) a6 (ix2 e (0 : Fin 1))
            + broadcastInDim S1650000x1 ![0, 1] h7b (broadcastInDim (⟨2, ![1, 1]⟩ : Shape) ![1] h7a a7) (ix2 e (0 : Fin 1)))))
    = Ideal.logistic ((∑ d : Fin 32,
          (pad (⟨2, ![1654784, 1]⟩ : Shape) ![0, 0] ![4784, 0] ![0, 0] X pv hp hu (ix2 (⟨e.val, he⟩ : Fin 1654784) (0 : Fin 1))
              * a4 (ix2 (0 : Fin 1) d) + shapeCast S1x32 a5 h5 (ix2 (0 : Fin 1) d)) * shapeCast S1x32 a6 h6 (ix2 (0 : Fin 1) d))
        + shapeCast (⟨2, ![1, 1]⟩ : Shape) a7 h7 (ix2 (0 : Fin 1) (0 : Fin 1)))
  rw [ones_apply]
  show Ideal.logistic _ = Ideal.logistic _
  refine congrArg Ideal.logistic ?_
  rw [DenseVec.dotGeneral_ix2 dot_second_plain, Keepdims.cols_apply h7a h7b a7 e (0 : Fin 1),
    shapeCast_a_1a_apply a7 h7 (0 : Fin 1) (0 : Fin 1)]
  refine congrArg₂ (· + ·) (Finset.sum_congr rfl fun d _ => ?_) rfl
  rw [addf_apply, DenseVec.dotGeneral_ix2 dot_first_plain, Fin.sum_univ_one, Keepdims.cols_apply h5a h5b a5 e d,
    shapeCast_a_1a_apply a5 h5 (0 : Fin 1) d,
    pad_apply_of_inside _ _ _ X pv hp hu (ix2 (⟨e.val, he⟩ : Fin 1654784) (0 : Fin 1)) (ix2 e (0 : Fin 1)) (fun a => by
      match a with
      | ⟨0, _⟩ => show e.val = 0 + e.val * (0 + 1); omega
      | ⟨1, _⟩ => show 0 = 0 + 0 * (0 + 1); omega),
    shapeCast_apply a6 h6 (ix2 (0 : Fin 1) d) (ix2 d (0 : Fin 1)) (by
      rw [Shape.rowMajor_val_two, Shape.rowMajor_val_two]
      show d.val * 1 + 0 = 0 * 32 + d.val
      omega)]

/-- A factor of ones between an edge's source factor and its target factor changes nothing. -/
theorem times_ones (A B : FVec Ideal S1650000 .f32) (hone : S_.BroadcastsInDim S1650000 ![]) :
    mulf (mulf A (broadcastInDim S1650000 ![] hone (constant (F := Ideal) S_ .f32 0x3F800000#32))) B = mulf A B := by
  funext i
  rw [mulf_apply, mulf_apply, mulf_apply, ones_apply, mul_one]

end Cert.ReferenceIdeal.HostForms

end
-- ==== Proof.LibJoinCongr.lean ====
/-
  Two arrays joined along an axis, as a function of the two arrays.

  A `concatenate` of a two-element list takes, besides the list, the proof that the operands' SHAPES fit the result
  along the axis. That side condition does not mention the operands' contents, so equal operands give equal joins.
  Stated in the form of a congruence rule: with it in scope a simplifier pass rewrites inside the operands of a join,
  which it otherwise leaves untouched because a later argument's type depends on the list.
-/
import Idealize.ShloMosaic.Lib.Pipeline.Value

namespace Idealize.ShloMosaic.JoinCongr

open Idealize.ShloMosaic

/-- A join of two arrays depends only on the two arrays. -/
theorem concatenate_pair_congr {α : Type} {t s1 s2 : Shape} (a : Fin t.rank) {x x' : s1.Idx → α} {y y' : s2.Idx → α}
    (h : Shape.Concatenates [s1, s2] t a) (hx : x = x') (hy : y = y') :
    concatenate t a [⟨s1, x⟩, ⟨s2, y⟩] h = concatenate t a [⟨s1, x'⟩, ⟨s2, y'⟩] h := by
  subst hx; subst hy; rfl

end Idealize.ShloMosaic.JoinCongr
-- ==== Proof.Bridge.lean ====
/-
  The two programs compute one function of the arguments.

  The kernel program's result buffer ends at the last boundary of the fold through @main. Walking the fold back —
  the final concatenation; the linear region's array, which is the dense layer of its operands; the host operations
  between the regions (the gate's first 1650000 rows times the edge weight, spread over the 128 feature columns, times
  the gathered source features, added into the target rows); the edge region's column, which is the gate of its
  operands; the host operations before it — writes that buffer as one term of the eight argument arrays.

  The reference's run ends at its own composed term of the same arrays. The two terms are the same operations on the
  same operands except in three places: the last layer (a host matrix product plus a spread bias against the linear
  kernel's dense layer), the gate (two host products under 1 / (1 + exp (−·)) against the first rows of the edge
  kernel's gate on the padded column) and a factor of ones in the edge weight. Each is an equation proved entry by
  entry on the extended reals; none needs the inputs to be finite.
-/
import proofs.«153934_j14190571946497_2_alg».proof.Proof.LinearRegion
import proofs.«153934_j14190571946497_2_alg».proof.Proof.EdgeRegion
import proofs.«153934_j14190571946497_2_alg».proof.Proof.CallForms
import proofs.«153934_j14190571946497_2_alg».proof.Proof.RefRun
import proofs.«153934_j14190571946497_2_alg».proof.Proof.HostForms
import proofs.«153934_j14190571946497_2_alg».proof.Proof.LibJoinCongr

set_option maxRecDepth 16384

noncomputable section

namespace Cert.Bridge

open Cert.KernelIdeal Cert.KernelIdeal.Gen Cert.KernelIdeal.Bodies
open Idealize.ShloMosaic Idealize.ShloMosaic.TcCoe Idealize.SL.Sem Idealize.ShloMosaic.StableHlo

-- a join of two arrays depends only on the two arrays: lets the evaluation below rewrite inside a join's operands
attribute [local congr] Idealize.ShloMosaic.JoinCongr.concatenate_pair_congr

variable (m : (ℓ : Loc nD τ sig) → Buf (Elt Ideal) ℓ) (ρ : Dev nD → PrngReg)

set_option maxHeartbeats 80000000 in
/-- The kernel program's result array is the reference's composed term, at arguments that agree. -/
theorem fold_eq_reference (c : Dev nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7)) :
    W9 m ρ c (Proc.devRef .tc main_v73) = Cert.ReferenceIdeal.ValueP.res_main_v83 (F := Ideal) m' c := by
  -- the kernel side, walked back through the fold, one stretch of @main at a time
  dsimp only [W9, hostOps2]
  after_results_simp
  rw [show W8 m ρ c (Proc.devRef .tc main_v72) = dense (V7 m ρ c main_v69) (V7 m ρ c main_v70) (V7 m ρ c main_v71) from
    (W8_arr m ρ c 3).trans (Cert.KernelIdeal.LinearRegion.final (V7 m ρ) c)]
  rw [W8_of_ne m ρ c main_v0 (by decide)]
  dsimp only [V7, W7, hostOps1]
  after_results_simp
  rw [show W6 m ρ c (Proc.devRef .tc main_v54)
      = edgeGate (V5 m ρ c main_v50) (V5 m ρ c main_arg4) (V5 m ρ c main_v51) (V5 m ρ c main_v52) (V5 m ρ c main_v53) from
    (W6_arr m ρ c 5).trans (Cert.KernelIdeal.EdgeRegion.final (V5 m ρ) c)]
  simp only [W6_of_ne m ρ c main_v0 (by decide), W6_of_ne m ρ c main_v1 (by decide), W6_of_ne m ρ c main_v5 (by decide),
    W6_of_ne m ρ c main_v8 (by decide), W6_of_ne m ρ c main_v31 (by decide), W6_of_ne m ρ c main_arg2 (by decide),
    W6_of_ne m ρ c main_arg3 (by decide)]
  -- the three reshapes of the small parameters
  dsimp only [V5, W5]
  generalize hV4 : W4 m ρ c = V4
  dsimp only [hostOps0_4]
  after_results_simp
  subst hV4
  -- the padding call
  rw [show W4 m ρ c (Proc.devRef .tc main_v50) = _ from Cert.KernelIdeal.CallForms.pad_result (W3 m ρ c)]
  dsimp only [W4]
  generalize hV3 : W3 m ρ c = V3
  dsimp only [hostOps0_3]
  after_results_simp
  subst hV3
  -- the gathers, the edge weight and the squared distances
  dsimp only [W3]
  generalize hV2 : W2 m ρ c = V2
  dsimp only [hostOps0_2]
  after_results_simp
  subst hV2
  -- the node factor's select
  rw [show W2 m ρ c (Proc.devRef .tc main_v16) = _ from Cert.KernelIdeal.CallForms.where_result (W1 m ρ c)]
  dsimp only [W2]
  generalize hV1 : W1 m ρ c = V1
  dsimp only [hostOps0_1]
  after_results_simp
  subst hV1
  -- the slices, the index vectors and the degrees
  dsimp only [W1, hostOps0]
  after_results_simp
  -- the reference side, brought to the kernel's three forms
  unfold Cert.ReferenceIdeal.ValueP.res_main_v83
  rw [h0, h1, h2, h3, h4, h5, h6, h7]
  rw [Cert.ReferenceIdeal.HostForms.host_linear _ _ _ _ _ bitsLt_bf16_f32 shapeCasts_S128_S1x128,
    Cert.ReferenceIdeal.HostForms.host_gate _ _ _ _ _ (sitofp .f32 (constantI S_ 32 0#32)) _ _ _ _ _
      pads_S1650000x1_S1654784x1_047840_000 h_S_ shapeCasts_S32_S1x32 shapeCasts_S32x1_S1x32 shapeCasts_S1_S1x1
      slices_S1654784x1_S1650000x1_0_0,
    Cert.ReferenceIdeal.HostForms.times_ones]
  rfl

end Cert.Bridge

end
-- ==== Proof.lean ====
/-
  Graph message passing with a learned edge gate: the kernel program against its reference, on the extended reals.

  Both programs take a table of 50000 nodes (64 position coordinates and 128 features each), 1600000 directed edges, a
  128 × 128 weight matrix with its bias, and a 1 → 32 → 1 perceptron on edges. Both add a loop at every node, weigh
  an edge by 1/√deg of its source times 1/√deg of its target (deg counting incoming edges, loops included), gate it by
  the sigmoid of the perceptron of the squared distance between its endpoints' positions, add the gated, weighed
  source features into the target node, apply the dense layer to the sums, and return the positions beside the result.

  The kernel program computes the gate in one vector kernel over blocks of 8192 edges (on the edge column padded to a
  multiple of the block) and the dense layer in a second over blocks of 2000 nodes; the reference computes both with
  host matrix products. The frames of the two kernel programs are the generated certificates; the reference's frame
  and its result are its run read back; `preserves` has nothing to state (the idealisation rewrote no operation).
  The algebraic claim: the kernel program's result buffer, followed back through @main's segments, is one term of the
  arguments (Proof/KernelRun.lean, Proof/EdgeRegion.lean, Proof/LinearRegion.lean), and that term is the reference's
  (Proof/Bridge.lean over Proof/HostForms.lean). No step uses the finiteness of the inputs.
-/
import proofs.«153934_j14190571946497_2_alg».proof.Defs
import proofs.«153934_j14190571946497_2_alg».proof.Proof.Gen.Kernel
import proofs.«153934_j14190571946497_2_alg».proof.Proof.Gen.Kernel.Skeleton
import proofs.«153934_j14190571946497_2_alg».proof.Proof.Gen.Kernel.Launch
import proofs.«153934_j14190571946497_2_alg».proof.Proof.Gen.Kernel.Points
import proofs.«153934_j14190571946497_2_alg».proof.Proof.Gen.Kernel.Frame
import proofs.«153934_j14190571946497_2_alg».proof.Proof.Gen.KernelIdeal
import proofs.«153934_j14190571946497_2_alg».proof.Proof.Gen.KernelIdeal.Skeleton
import proofs.«153934_j14190571946497_2_alg».proof.Proof.Gen.KernelIdeal.Launch
import proofs.«153934_j14190571946497_2_alg».proof.Proof.Gen.KernelIdeal.Points
import proofs.«153934_j14190571946497_2_alg».proof.Proof.Gen.KernelIdeal.Frame
import proofs.«153934_j14190571946497_2_alg».proof.Proof.Gen.ReferenceIdeal
import proofs.«153934_j14190571946497_2_alg».proof.Proof.Gen.Pre_finite_inputs
import proofs.«153934_j14190571946497_2_alg».proof.Proof.RefRun
import proofs.«153934_j14190571946497_2_alg».proof.Proof.KernelRun
import proofs.«153934_j14190571946497_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference is host operations only: its run read back, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the same result array: the kernel program's
    last boundary contents at its result buffer, which is the reference's composed term. -/
theorem algebraic : Cert.algebraic_KernelIdeal_ReferenceIdeal := by
  intro m ρ m' ρ' _ hagree
  refine ⟨fun c => Cert.KernelIdeal.Gen.W9 m ρ c (Proc.devRef .tc Cert.KernelIdeal.main_v73),
    Cert.KernelIdeal.RunValue.run_fold m ρ, ?_⟩
  refine (θ_run Cert.ReferenceIdeal.defs _ _).mono (fun _ h c => ⟨(h c).1.trans ?_, (h c).2⟩)
    (Cert.ReferenceIdeal.ValueP.run (F := Ideal) m' ρ')
  exact (Cert.Bridge.fold_eq_reference m ρ c m' (hagree c).1 (hagree c).2.1 (hagree c).2.2.1 (hagree c).2.2.2.1
    (hagree c).2.2.2.2.1 (hagree c).2.2.2.2.2.1 (hagree c).2.2.2.2.2.2.1 (hagree c).2.2.2.2.2.2.2).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
